-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x1 : Shape := ⟨2, ![100000, 1]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : FVec F S100000x1 .f32) (main_arg2 : IVec S1600000 32) (main_arg3 : IVec S1600000 32) (main_arg4 : FVec F S128x256 .f32) (main_arg5 : FVec F S128 .f32) (main_arg6 : FVec F S64x128 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x256 : Shape := ⟨2, ![100000, 256]⟩
abbrev S100000x1 : Shape := ⟨2, ![100000, 1]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S256x128 : Shape := ⟨2, ![256, 128]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S10000x128 : Shape := ⟨2, ![10000, 128]⟩
abbrev S10000x1 : Shape := ⟨2, ![10000, 1]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S10000x64 : Shape := ⟨2, ![10000, 64]⟩

abbrev nBuf : Space → Nat
  | .hbm => 42
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S256x128, .f32⟩
  | .hbm, ⟨9, _⟩ => ⟨S1x128, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S128x64, .f32⟩
  | .hbm, ⟨26, _⟩ => ⟨S1x64, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .f32⟩
  | .local _ .vmem, ⟨21, _⟩ => ⟨S10000x1, .f32⟩
  | .local _ .vmem, ⟨22, _⟩ => ⟨S10000x64, .f32⟩
  | .local _ .vmem, ⟨23, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S10000x1_S10000x1_0_0 : ∀ a, (![0, 0] : Fin 2 → Nat) a + S10000x1.size a ≤ S10000x1.size a
  h_S10000x1 : 0 < S10000x1.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  transposes_S64x128_S128x64_1_0 : S64x128.Transposes [1, 0] S128x64
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S100000x1 : Shape := ⟨2, ![100000, 1]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S256x128 : Shape := ⟨2, ![256, 128]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S256x128, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S128x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x64, .f32⟩
  | .hbm, ⟨50, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.ResultRun.lean ====
/-
  The idealized kernel's run with its result named.

  @main is eight segments — four stretches of host operations and four kernel regions, alternately — and the buffer
  contents at each boundary are a fold from the launch memory: a stretch applies its operations, a region replaces its
  arrays by what its write-backs leave.  Every weakly fair execution terminates with every unscoped buffer at the last
  boundary's contents `W8`; read at the result buffer this names the result, and read at the argument buffers it gives
  the arguments back unchanged.
-/
import proofs.«108688_j55817394978940_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ResultRun

end
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.NodeMaps.lean ====
/-
  The three maps a graph-convolution layer applies to a table of node features, one row per node, written entry by
  entry on the extended reals.

  * `affineRows x w b`: every row of `x` times the columns of `w`, plus the bias row `b` — the entry at (r, c) is
    the sum over k of x (r, k) · w (k, c), plus b (0, c).
  * `scaleRows s a`: every row of `a` multiplied by its own factor — the entry at (r, c) is s (r, 0) · a (r, c).
  * `scaleRowsFloor z s a`: the same, then floored at `z` (the rectifier when `z` is zero).

  Row r of each result depends on row r of the node table only (and on the small operands), which is why a result
  computed block of rows by block of rows is the same array.
-/
import proofs.«108688_j55817394978940_1_alg».proof.Proof.LibRowColumn

noncomputable section

namespace Cert.NodeMaps

open Idealize.ShloMosaic Idealize.ShloMosaic.ValueIdx

variable {N K C : Nat}

/-- Rows times columns, plus the bias row. -/
def affineRows (x : (⟨2, ![N, K]⟩ : Shape).Idx → EReal) (w : (⟨2, ![K, C]⟩ : Shape).Idx → EReal)
    (b : (⟨2, ![1, C]⟩ : Shape).Idx → EReal) : (⟨2, ![N, C]⟩ : Shape).Idx → EReal :=
  fun i => Cert.Lib.RowColumn.rowsTimes (M := N) (K := K) (N := C) x w i + b (ix2 0 (i 1))

/-- Each row multiplied by its own factor. -/
def scaleRows (s : (⟨2, ![N, 1]⟩ : Shape).Idx → EReal) (a : (⟨2, ![N, C]⟩ : Shape).Idx → EReal) :
    (⟨2, ![N, C]⟩ : Shape).Idx → EReal :=
  fun i => s (ix2 (i 0) 0) * a i

/-- Each row multiplied by its own factor, then floored at `z`. -/
def scaleRowsFloor (z : EReal) (s : (⟨2, ![N, 1]⟩ : Shape).Idx → EReal) (a : (⟨2, ![N, C]⟩ : Shape).Idx → EReal) :
    (⟨2, ![N, C]⟩ : Shape).Idx → EReal :=
  fun i => max (s (ix2 (i 0) 0) * a i) z

theorem affineRows_apply (x : (⟨2, ![N, K]⟩ : Shape).Idx → EReal) (w : (⟨2, ![K, C]⟩ : Shape).Idx → EReal)
    (b : (⟨2, ![1, C]⟩ : Shape).Idx → EReal) (i : (⟨2, ![N, C]⟩ : Shape).Idx) :
    affineRows x w b i = (∑ k : Fin K, x (ix2 (i 0) k) * w (ix2 k (i 1))) + b (ix2 0 (i 1)) := rfl

theorem scaleRows_apply (s : (⟨2, ![N, 1]⟩ : Shape).Idx → EReal) (a : (⟨2, ![N, C]⟩ : Shape).Idx → EReal)
    (i : (⟨2, ![N, C]⟩ : Shape).Idx) : scaleRows s a i = s (ix2 (i 0) 0) * a i := rfl

theorem scaleRowsFloor_apply (z : EReal) (s : (⟨2, ![N, 1]⟩ : Shape).Idx → EReal) (a : (⟨2, ![N, C]⟩ : Shape).Idx → EReal)
    (i : (⟨2, ![N, C]⟩ : Shape).Idx) : scaleRowsFloor z s a i = max (s (ix2 (i 0) 0) * a i) z := rfl

end Cert.NodeMaps

end
-- ==== Proof.Layers.lean ====
/-
  The two layers as one function of the eight argument arrays, on the extended reals.

  A layer maps the node table through an affine map (`affineRows`), sends every edge's source row to the edge
  (`gather` at the source column), adds the edges' rows into their destination nodes starting from zero (`scatterAdd`),
  and multiplies every node's row by the node's factor; the first layer then floors at zero.  A source number below
  zero is first moved up by the number of nodes, as indexing from the end asks.  The gather and the scatter are the
  host's own operations, applied here to whole arrays and never opened: both programs apply the same two operations to
  what the affine maps give them.
-/
import proofs.«108688_j55817394978940_1_alg».proof.Proof.Gen.KernelIdeal
import proofs.«108688_j55817394978940_1_alg».proof.Proof.NodeMaps
import Idealize.ShloMosaic.PureOps.Ideal

noncomputable section

namespace Cert.KernelIdeal.Layers

open Idealize.ShloMosaic Cert.KernelIdeal Cert.KernelIdeal.Gen Cert.NodeMaps

/-- The literal zero: the rectifier's floor and the aggregation's starting value. -/
abbrev zero : EReal := Ideal.ofBits .f32 0x00000000#32

/-- The edges' source nodes as a column, a negative number moved up by the number of nodes. -/
def sourceColumn (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Every edge's source row added into the edge's destination node, from zero: 128 features. -/
def aggregate128 (h : (⟨S100000x128, .f32⟩ : BufTy).Contents (Elt Ideal))
    (src dst : (⟨S1600000, .i32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (sourceColumn src))

/-- The same over 64 features. -/
def aggregate64 (h : (⟨S100000x64, .f32⟩ : BufTy).Contents (Elt Ideal))
    (src dst : (⟨S1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (sourceColumn src))

variable (x : (⟨S100000x256, .f32⟩ : BufTy).Contents (Elt Ideal)) (nrm : (⟨S100000x1, .f32⟩ : BufTy).Contents (Elt Ideal))
  (src dst : (⟨S1600000, .i32⟩ : BufTy).Contents (Elt Ideal))
  (w1 : (⟨S128x256, .f32⟩ : BufTy).Contents (Elt Ideal)) (b1 : (⟨S128, .f32⟩ : BufTy).Contents (Elt Ideal))
  (w2 : (⟨S64x128, .f32⟩ : BufTy).Contents (Elt Ideal)) (b2 : (⟨S64, .f32⟩ : BufTy).Contents (Elt Ideal))

/-- The first affine map: the input features times the transposed weights, plus the bias as a row. -/
def hidden1 : (⟨S100000x128, .f32⟩ : BufTy).Contents (Elt Ideal) :=
  affineRows (N := 100000) (K := 256) (C := 128) x (transpose S256x128 [1, 0] w1 transposes_S128x256_S256x128_1_0)
    (shapeCast S1x128 b1 shapeCasts_S128_S1x128)

/-- The first layer's output: aggregated, scaled by the nodes' factors, floored at zero. -/
def layer1 : (⟨S100000x128, .f32⟩ : BufTy).Contents (Elt Ideal) :=
  scaleRowsFloor (N := 100000) (C := 128) zero nrm (aggregate128 (hidden1 x w1 b1) src dst)

/-- The second affine map, of the first layer's output. -/
def hidden2 : (⟨S100000x64, .f32⟩ : BufTy).Contents (Elt Ideal) :=
  affineRows (N := 100000) (K := 128) (C := 64) (layer1 x nrm src dst w1 b1) (transpose S128x64 [1, 0] w2 transposes_S64x128_S128x64_1_0)
    (shapeCast S1x64 b2 shapeCasts_S64_S1x64)

/-- The result: the second layer's aggregate scaled by the nodes' factors. -/
def result : (⟨S100000x64, .f32⟩ : BufTy).Contents (Elt Ideal) :=
  scaleRows (N := 100000) (C := 64) nrm (aggregate64 (hidden2 x nrm src dst w1 b1 w2 b2) src dst)

end Cert.KernelIdeal.Layers

end
-- ==== Proof.AffineRegionOne.lean ====
/-
  The first layer's affine region: twenty blocks of 5000 nodes each; at every block the nodes' feature rows are
  multiplied into the 256 × 128 weight columns (the products accumulated from zero) and the bias row is added.  Block t
  of the result is rows 5000·t … 5000·t + 4999 of `affineRows x w b`: a row of the product reads that row of the input features
  only, and the weights and the bias are the same whole arrays at every block.  The twenty blocks tile the 100000 rows,
  so the region leaves exactly that array — whatever the three operands are when the region is entered.
-/
import proofs.«108688_j55817394978940_1_alg».proof.Proof.Gen.KernelIdeal.Frame
import proofs.«108688_j55817394978940_1_alg».proof.Proof.NodeMaps
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.AffineOne

open Cert.KernelIdeal Cert.KernelIdeal.Gen Cert.NodeMaps

variable (V : (c : Dev nD) → (b : Ref sig .tc) → Buf (Elt Ideal) ((c : Thread nD τ).loc b))

theorem hz : (![0, 0] : Fin 2 → Nat) = fun _ => 0 := funext fun a => by fin_cases a <;> rfl

/-! The contraction's operand indices: the left operand is read at (row, k), the right at (k, column). -/

theorem lhs_row (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_contracted (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem rhs_contracted (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem rhs_column (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The bias row repeated down the block reads, at (p, q), the row at (0, q). -/
theorem bias_apply (bb : Vec Ideal S1x128 .f32) (p : Fin 5000) (q : Fin 128) :
    broadcastTo S5000x128 bb broadcasts_S1x128_S5000x128 (ix2 p q) = bb (ix2 0 q) := by
  refine broadcastTo_apply bb broadcasts_S1x128_S5000x128 (ix2 p q) (ix2 0 q) fun ax => ?_
  match ax with
  | ⟨0, _⟩ => show (0 : ℕ) = if (1 : ℕ) = 1 then 0 else p.val; rw [if_pos rfl]
  | ⟨1, _⟩ => show q.val = if (128 : ℕ) = 1 then 0 else q.val; rw [if_neg (by decide)]

/-- One block's arithmetic at an entry: the row times the column, plus the bias of the column. -/
theorem payload_apply (xb : Vec Ideal S5000x256 .f32) (wb : Vec Ideal S256x128 .f32) (bb : Vec Ideal S1x128 .f32) (j : S5000x128.Idx) :
    k0_pay1 xb wb bb j = (∑ k : Fin 256, xb (ix2 (j 0) k) * wb (ix2 k (j 1))) + bb (ix2 0 (j 1)) := by
  obtain ⟨p, q, rfl⟩ : ∃ (p : Fin 5000) (q : Fin 128), j = ix2 p q := ⟨j 0, j 1, eq_ix2 j⟩
  unfold k0_pay1
  simp only [shapeCast_self]
  show FloatOps.matmul dot_S5000x256_S256x128_S5000x128_1_0_0_1_n_n none (truncf .bf16 xb bitsLt_bf16_f32) (truncf .bf16 wb bitsLt_bf16_f32)
      (constant (F := Ideal) S5000x128 .f32 0x00000000#32) (ix2 p q)
    + broadcastTo S5000x128 bb broadcasts_S1x128_S5000x128 (ix2 p q) = _
  rw [Cert.Lib.RowColumn.matmul_zero_entry (M := 5000) (K := 256) (N := 128) dot_S5000x256_S256x128_S5000x128_1_0_0_1_n_n rfl rfl
    lhs_row lhs_contracted rhs_contracted rhs_column none, bias_apply]
  rfl

/-- The node rows and the result move along the rows with the block number; the weights and the bias stay put. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What block t writes back is block t of the affine image of the whole node table. -/
theorem flushed (c : Dev nD) (t : Fin cfg0.N) :
    (dat0 V c).flushed 3 t
      = ((cfg0.win 3).blk t).view.read (Elt Ideal) (affineRows (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  obtain ⟨x0, x1, w0, w1, b0, b1, o0, o1⟩ := block_index t
  funext j
  show k0_pay1 (iblk0 V c 0 t) (iblk0 V c 1 t) (iblk0 V c 2 t) j
    = affineRows (V c main_arg0) (V c main_v0) (V c main_v1) (((cfg0.win 3).blk t).view.emb j)
  rw [payload_apply (iblk0 V c 0 t) (iblk0 V c 1 t) (iblk0 V c 2 t) j, affineRows_apply]
  have hx : ∀ k : Fin 256, ((cfg0.win 0).blk t).view.emb (ix2 (j 0) k) = ix2 ((((cfg0.win 3).blk t).view.emb j) 0) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  have hw : ∀ k : Fin 256, ((cfg0.win 1).blk t).view.emb (ix2 k (j 1)) = ix2 k ((((cfg0.win 3).blk t).view.emb j) 1) := fun k => by
    funext a; apply Fin.ext
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  have hb : ((cfg0.win 2).blk t).view.emb (ix2 0 (j 1)) = ix2 0 ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  refine congrArg₂ (fun a b : EReal => a + b) (Finset.sum_congr rfl fun k _ => congrArg₂ (fun a b : EReal => a * b) ?_ ?_) ?_
  · show V c main_arg0 (((cfg0.win 0).blk t).view.emb (ix2 (j 0) k)) = V c main_arg0 _
    exact congrArg _ (hx k)
  · show V c main_v0 (((cfg0.win 1).blk t).view.emb (ix2 k (j 1))) = V c main_v0 _
    exact congrArg _ (hw k)
  · show V c main_v1 (((cfg0.win 2).blk t).view.emb (ix2 0 (j 1))) = V c main_v1 _
    exact congrArg _ hb

/-- An index of the result array lies in block t iff each coordinate lies in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- Row r lies in block r / 5000: the twenty blocks tile the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show _ < grid0.N; rw [hN]; omega⟩, rfl⟩
  obtain ⟨_, _, _, _, _, _, o0, o1⟩ := block_index t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array the region leaves: every node's row times the weight columns, plus the bias row. -/
theorem final (c : Dev nD) : (dat0 V c).arrAt 3 cfg0.N = affineRows (V c main_arg0) (V c main_v0) (V c main_v1) :=
  (dat0 V c).arrAt_eq_of_cover 3 _ (fun t _ => flushed V c t) covered

end Cert.KernelIdeal.AffineOne

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.ScaleFloorRegion.lean ====
/-
  The first layer's scaling region: ten blocks of 10000 nodes each; at every block the aggregated rows are multiplied
  by their nodes' factors and floored at zero.  Block t of the result is rows 10000·t … 10000·t + 9999 of
  `scaleRowsFloor 0 norm agg`, and the ten blocks tile the 100000 rows, so the region leaves exactly that array —
  whatever the aggregated array and the factors are when the region is entered.
-/
import proofs.«108688_j55817394978940_1_alg».proof.Proof.Gen.KernelIdeal.Frame
import proofs.«108688_j55817394978940_1_alg».proof.Proof.NodeMaps
import proofs.«108688_j55817394978940_1_alg».proof.Proof.LibColumnLayout
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.ScaleFloor

open Cert.KernelIdeal Cert.KernelIdeal.Gen Cert.NodeMaps

variable (V : (c : Dev nD) → (b : Ref sig .tc) → Buf (Elt Ideal) ((c : Thread nD τ).loc b))

theorem hz : (![0, 0] : Fin 2 → Nat) = fun _ => 0 := funext fun a => by fin_cases a <;> rfl

/-- The literal zero the rectifier floors at. -/
abbrev zero : EReal := Ideal.ofBits .f32 0x00000000#32

/-- One block's arithmetic at an entry: the row's factor times the entry, floored at zero. -/
theorem payload_apply (nb : Vec Ideal S10000x1 .f32) (ab : Vec Ideal S10000x128 .f32) (j : S10000x128.Idx) :
    k1_pay1 nb ab j = max (nb (ix2 (j 0) 0) * ab j) zero := by
  obtain ⟨p, q, rfl⟩ : ∃ (p : Fin 10000) (q : Fin 128), j = ix2 p q := ⟨j 0, j 1, eq_ix2 j⟩
  unfold k1_pay1
  show max (broadcastTo S10000x128 nb broadcasts_S10000x1_S10000x128 (ix2 p q)
    * shapeCast S10000x128 ab shapeCasts_S10000x128_S10000x128 (ix2 p q)) _ = _
  rw [shapeCast_self, Cert.Lib.ColumnLayout.broadcastTo_a1_ab_apply nb _ p q 0]
  rfl

/-- Every window of the region moves along the rows with the block number and stays at column block 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What block t writes back is block t of the scaled and floored array. -/
theorem flushed (c : Dev nD) (t : Fin cfg1.N) :
    (dat1 V c).flushed 2 t
      = ((cfg1.win 2).blk t).view.read (Elt Ideal) (scaleRowsFloor zero (V c main_arg1) (V c main_v12)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨a0, a1, n0, n1, o0, o1⟩ := block_index t
  funext j
  show k1_pay1 (iblk1 V c 1 t) (iblk1 V c 0 t) j
    = scaleRowsFloor zero (V c main_arg1) (V c main_v12) (((cfg1.win 2).blk t).view.emb j)
  rw [payload_apply (iblk1 V c 1 t) (iblk1 V c 0 t) j, scaleRowsFloor_apply]
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (j 0) 0) = ix2 ((((cfg1.win 2).blk t).view.emb j) 0) 0 := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  refine congrArg₂ (fun a b : EReal => max (a * b) zero) ?_ ?_
  · show V c main_arg1 (((cfg1.win 1).blk t).view.emb (ix2 (j 0) 0)) = V c main_arg1 _
    exact congrArg _ h1
  · show V c main_v12 (((cfg1.win 0).blk t).view.emb j) = V c main_v12 _
    exact congrArg _ h0

/-- An index of the result array lies in block t iff each coordinate lies in the block's range on its axis. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v13).slice (win1_2.rect t)).set ↔ _
  rw [View.set_slice_whole, Rect.mem_set_unit]
  exact Iff.rfl

/-- Row r lies in block r / 10000: the ten blocks tile the array. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 := ⟨⟨(i 0).val / 10000, by show _ < grid1.N; rw [hN]; omega⟩, rfl⟩
  obtain ⟨_, _, _, _, o0, o1⟩ := block_index t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array the region leaves: every aggregated row times its node's factor, floored at zero. -/
theorem final (c : Dev nD) : (dat1 V c).arrAt 2 cfg1.N = scaleRowsFloor zero (V c main_arg1) (V c main_v12) :=
  (dat1 V c).arrAt_eq_of_cover 2 _ (fun t _ => flushed V c t) covered

end Cert.KernelIdeal.ScaleFloor

end
-- ==== Proof.AffineRegionTwo.lean ====
/-
  The second layer's affine region: twenty blocks of 5000 nodes each; at every block the nodes' feature rows are
  multiplied into the 128 × 64 weight columns (the products accumulated from zero) and the bias row is added.  Block t
  of the result is rows 5000·t … 5000·t + 4999 of `affineRows x w b`: a row of the product reads that row of the hidden features
  only, and the weights and the bias are the same whole arrays at every block.  The twenty blocks tile the 100000 rows,
  so the region leaves exactly that array — whatever the three operands are when the region is entered.
-/
import proofs.«108688_j55817394978940_1_alg».proof.Proof.Gen.KernelIdeal.Frame
import proofs.«108688_j55817394978940_1_alg».proof.Proof.NodeMaps
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.AffineTwo

open Cert.KernelIdeal Cert.KernelIdeal.Gen Cert.NodeMaps

variable (V : (c : Dev nD) → (b : Ref sig .tc) → Buf (Elt Ideal) ((c : Thread nD τ).loc b))

theorem hz : (![0, 0] : Fin 2 → Nat) = fun _ => 0 := funext fun a => by fin_cases a <;> rfl

/-! The contraction's operand indices: the left operand is read at (row, k), the right at (k, column). -/

theorem lhs_row (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_contracted (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_contracted (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_column (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The bias row repeated down the block reads, at (p, q), the row at (0, q). -/
theorem bias_apply (bb : Vec Ideal S1x64 .f32) (p : Fin 5000) (q : Fin 64) :
    broadcastTo S5000x64 bb broadcasts_S1x64_S5000x64 (ix2 p q) = bb (ix2 0 q) := by
  refine broadcastTo_apply bb broadcasts_S1x64_S5000x64 (ix2 p q) (ix2 0 q) fun ax => ?_
  match ax with
  | ⟨0, _⟩ => show (0 : ℕ) = if (1 : ℕ) = 1 then 0 else p.val; rw [if_pos rfl]
  | ⟨1, _⟩ => show q.val = if (64 : ℕ) = 1 then 0 else q.val; rw [if_neg (by decide)]

/-- One block's arithmetic at an entry: the row times the column, plus the bias of the column. -/
theorem payload_apply (xb : Vec Ideal S5000x128 .f32) (wb : Vec Ideal S128x64 .f32) (bb : Vec Ideal S1x64 .f32) (j : S5000x64.Idx) :
    k2_pay1 xb wb bb j = (∑ k : Fin 128, xb (ix2 (j 0) k) * wb (ix2 k (j 1))) + bb (ix2 0 (j 1)) := by
  obtain ⟨p, q, rfl⟩ : ∃ (p : Fin 5000) (q : Fin 64), j = ix2 p q := ⟨j 0, j 1, eq_ix2 j⟩
  unfold k2_pay1
  simp only [shapeCast_self]
  show FloatOps.matmul dot_S5000x128_S128x64_S5000x64_1_0_0_1_n_n none (truncf .bf16 xb bitsLt_bf16_f32) (truncf .bf16 wb bitsLt_bf16_f32)
      (constant (F := Ideal) S5000x64 .f32 0x00000000#32) (ix2 p q)
    + broadcastTo S5000x64 bb broadcasts_S1x64_S5000x64 (ix2 p q) = _
  rw [Cert.Lib.RowColumn.matmul_zero_entry (M := 5000) (K := 128) (N := 64) dot_S5000x128_S128x64_S5000x64_1_0_0_1_n_n rfl rfl
    lhs_row lhs_contracted rhs_contracted rhs_column none, bias_apply]
  rfl

/-- The node rows and the result move along the rows with the block number; the weights and the bias stay put. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What block t writes back is block t of the affine image of the whole node table. -/
theorem flushed (c : Dev nD) (t : Fin cfg2.N) :
    (dat2 V c).flushed 3 t
      = ((cfg2.win 3).blk t).view.read (Elt Ideal) (affineRows (V c main_v13) (V c main_v14) (V c main_v15)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  obtain ⟨x0, x1, w0, w1, b0, b1, o0, o1⟩ := block_index t
  funext j
  show k2_pay1 (iblk2 V c 0 t) (iblk2 V c 1 t) (iblk2 V c 2 t) j
    = affineRows (V c main_v13) (V c main_v14) (V c main_v15) (((cfg2.win 3).blk t).view.emb j)
  rw [payload_apply (iblk2 V c 0 t) (iblk2 V c 1 t) (iblk2 V c 2 t) j, affineRows_apply]
  have hx : ∀ k : Fin 128, ((cfg2.win 0).blk t).view.emb (ix2 (j 0) k) = ix2 ((((cfg2.win 3).blk t).view.emb j) 0) k := fun k => by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have hw : ∀ k : Fin 128, ((cfg2.win 1).blk t).view.emb (ix2 k (j 1)) = ix2 k ((((cfg2.win 3).blk t).view.emb j) 1) := fun k => by
    funext a; apply Fin.ext
    match a with
    | ⟨0, _⟩ => show win2_1.index t (0 : Fin 2) * 128 + 1 * k.val = k.val; omega
    | ⟨1, _⟩ => show win2_1.index t (1 : Fin 2) * 64 + 1 * (j 1).val = win2_3.index t (1 : Fin 2) * 64 + 1 * (j 1).val; omega
  have hb : ((cfg2.win 2).blk t).view.emb (ix2 0 (j 1)) = ix2 0 ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  refine congrArg₂ (fun a b : EReal => a + b) (Finset.sum_congr rfl fun k _ => congrArg₂ (fun a b : EReal => a * b) ?_ ?_) ?_
  · show V c main_v13 (((cfg2.win 0).blk t).view.emb (ix2 (j 0) k)) = V c main_v13 _
    exact congrArg _ (hx k)
  · show V c main_v14 (((cfg2.win 1).blk t).view.emb (ix2 k (j 1))) = V c main_v14 _
    exact congrArg _ (hw k)
  · show V c main_v15 (((cfg2.win 2).blk t).view.emb (ix2 0 (j 1))) = V c main_v15 _
    exact congrArg _ hb

/-- An index of the result array lies in block t iff each coordinate lies in the block's range on its axis. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v16).slice (win2_3.rect t)).set ↔ _
  rw [View.set_slice_whole, Rect.mem_set_unit]
  exact Iff.rfl

/-- Row r lies in block r / 5000: the twenty blocks tile the array. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 20 := N_2
  obtain ⟨t, ht⟩ : ∃ t : Fin cfg2.N, t.val = (i 0).val / 5000 := ⟨⟨(i 0).val / 5000, by show _ < grid2.N; rw [hN]; omega⟩, rfl⟩
  obtain ⟨_, _, _, _, _, _, o0, o1⟩ := block_index t
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The array the region leaves: every node's row times the weight columns, plus the bias row. -/
theorem final (c : Dev nD) : (dat2 V c).arrAt 3 cfg2.N = affineRows (V c main_v13) (V c main_v14) (V c main_v15) :=
  (dat2 V c).arrAt_eq_of_cover 3 _ (fun t _ => flushed V c t) covered

end Cert.KernelIdeal.AffineTwo

end
-- ==== Proof.ScaleRegion.lean ====
/-
  The second layer's scaling region: ten blocks of 10000 nodes each; at every block the aggregated rows are multiplied
  by their nodes' factors.  Block t of the result is rows 10000·t … 10000·t + 9999 of `scaleRows norm agg`, and the
  ten blocks tile the 100000 rows, so the region leaves exactly that array — whatever the aggregated array and the
  factors are when the region is entered.
-/
import proofs.«108688_j55817394978940_1_alg».proof.Proof.Gen.KernelIdeal.Frame
import proofs.«108688_j55817394978940_1_alg».proof.Proof.NodeMaps
import proofs.«108688_j55817394978940_1_alg».proof.Proof.LibColumnLayout
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Scale

open Cert.KernelIdeal Cert.KernelIdeal.Gen Cert.NodeMaps

variable (V : (c : Dev nD) → (b : Ref sig .tc) → Buf (Elt Ideal) ((c : Thread nD τ).loc b))

theorem hz : (![0, 0] : Fin 2 → Nat) = fun _ => 0 := funext fun a => by fin_cases a <;> rfl

/-- One block's arithmetic at an entry: the row's factor times the entry. -/
theorem payload_apply (nb : Vec Ideal S10000x1 .f32) (ab : Vec Ideal S10000x64 .f32) (j : S10000x64.Idx) :
    k3_pay1 nb ab j = nb (ix2 (j 0) 0) * ab j := by
  obtain ⟨p, q, rfl⟩ : ∃ (p : Fin 10000) (q : Fin 64), j = ix2 p q := ⟨j 0, j 1, eq_ix2 j⟩
  unfold k3_pay1
  show broadcastTo S10000x64 nb broadcasts_S10000x1_S10000x64 (ix2 p q)
    * shapeCast S10000x64 ab shapeCasts_S10000x64_S10000x64 (ix2 p q) = _
  rw [shapeCast_self, Cert.Lib.ColumnLayout.broadcastTo_a1_ab_apply nb _ p q 0]

/-- Every window of the region moves along the rows with the block number and stays at column block 0. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What block t writes back is block t of the scaled array. -/
theorem flushed (c : Dev nD) (t : Fin cfg3.N) :
    (dat3 V c).flushed 2 t
      = ((cfg3.win 2).blk t).view.read (Elt Ideal) (scaleRows (V c main_arg1) (V c main_v26)) := by
  show (cfg3.win 2).cut (grid3.coords t) ((dat3 V c).after 2 t) = _
  rw [after3_2]
  unfold out3_2
  rw [View.canon_unit_zero hz]
  simp only [View.ld_unit_zero (S := S10000x64) hz, View.ld_unit_zero (S := S10000x1) hz]
  obtain ⟨a0, a1, n0, n1, o0, o1⟩ := block_index t
  funext j
  show k3_pay1 (iblk3 V c 1 t) (iblk3 V c 0 t) j
    = scaleRows (V c main_arg1) (V c main_v26) (((cfg3.win 2).blk t).view.emb j)
  rw [payload_apply (iblk3 V c 1 t) (iblk3 V c 0 t) j, scaleRows_apply]
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (n0 := 10000) (n1 := 1) (j 0) 0)
      = (ix2 (n0 := 100000) (n1 := 1) ((((cfg3.win 2).blk t).view.emb j) 0) 0 : S100000x1.Idx) := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 1 + 1 * 0 = 0; omega
  refine congrArg₂ (fun a b : EReal => a * b) ?_ ?_
  · show V c main_arg1 (((cfg3.win 1).blk t).view.emb (ix2 (j 0) 0)) = V c main_arg1 _
    exact congrArg _ h1
  · show V c main_v26 (((cfg3.win 0).blk t).view.emb j) = V c main_v26 _
    exact congrArg _ h0

/-- An index of the result array lies in block t iff each coordinate lies in the block's range on its axis. -/
theorem mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v27).slice (win3_2.rect t)).set ↔ _
  rw [View.set_slice_whole, Rect.mem_set_unit]
  exact Iff.rfl

/-- Row r lies in block r / 10000: the ten blocks tile the array. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  obtain ⟨t, ht⟩ : ∃ t : Fin cfg3.N, t.val = (i 0).val / 10000 := ⟨⟨(i 0).val / 10000, by show _ < grid3.N; rw [hN]; omega⟩, rfl⟩
  obtain ⟨_, _, _, _, o0, o1⟩ := block_index t
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array the region leaves: every aggregated row times its node's factor. -/
theorem final (c : Dev nD) : (dat3 V c).arrAt 2 cfg3.N = scaleRows (V c main_arg1) (V c main_v26) :=
  (dat3 V c).arrAt_eq_of_cover 2 _ (fun t _ => flushed V c t) covered

end Cert.KernelIdeal.Scale

end
-- ==== Proof.Boundaries.lean ====
/-
  The buffer contents at the eight boundaries of the idealized kernel's @main, read down to the launch memory.

  Stretch by stretch and region by region: the first stretch transposes the first weights and lays the first bias out as
  a row; region 0 leaves the first affine map of the input features; the second stretch gathers its rows at the edges'
  sources and adds them into the destinations; region 1 scales by the nodes' factors and floors at zero; the third
  stretch prepares the second weights and bias; region 2 leaves the second affine map; the fourth stretch aggregates
  again; region 3 scales.  A buffer that a stretch does not write and that is no array of a region keeps what it held,
  so every argument array is still its launch contents wherever a later stretch or region reads it.  Composed, the
  result buffer at the last boundary is `Layers.result` of the eight argument arrays.
-/
import proofs.«108688_j55817394978940_1_alg».proof.Proof.Gen.KernelIdeal.Frame
import proofs.«108688_j55817394978940_1_alg».proof.Proof.Layers
import proofs.«108688_j55817394978940_1_alg».proof.Proof.AffineRegionOne
import proofs.«108688_j55817394978940_1_alg».proof.Proof.ScaleFloorRegion
import proofs.«108688_j55817394978940_1_alg».proof.Proof.AffineRegionTwo
import proofs.«108688_j55817394978940_1_alg».proof.Proof.ScaleRegion
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Boundaries

open Cert.KernelIdeal Cert.KernelIdeal.Gen Cert.KernelIdeal.Layers Cert.NodeMaps

variable (m : (ℓ : Loc nD τ sig) → Buf (Elt Ideal) ℓ) (ρ : Dev nD → PrngReg) (c : Dev nD)

/-! ## After the first stretch: region 0's three operands -/

theorem V1_arg0 : V1 m ρ c main_arg0 = m ((c : Thread nD τ).loc main_arg0) := by
  show StableHlo.after hostOps0 (W0 m ρ c) (Proc.devRef .tc main_arg0) = _
  after_results
theorem V1_v0 : V1 m ρ c main_v0 = transpose S256x128 [1, 0] (m ((c : Thread nD τ).loc main_arg4)) transposes_S128x256_S256x128_1_0 := by
  show StableHlo.after hostOps0 (W0 m ρ c) (Proc.devRef .tc main_v0) = _
  after_results
theorem V1_v1 : V1 m ρ c main_v1 = shapeCast S1x128 (m ((c : Thread nD τ).loc main_arg5)) shapeCasts_S128_S1x128 := by
  show StableHlo.after hostOps0 (W0 m ρ c) (Proc.devRef .tc main_v1) = _
  after_results
  rfl
theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results

/-! ## After region 0: the first affine map -/

theorem W2_v2 : W2 m ρ c (Proc.devRef .tc main_v2) = hidden1 (m ((c : Thread nD τ).loc main_arg0)) (m ((c : Thread nD τ).loc main_arg4)) (m ((c : Thread nD τ).loc main_arg5)) :=
  (W2_arr m ρ c 3).trans ((Cert.KernelIdeal.AffineOne.final (V1 m ρ) c).trans (by rw [V1_arg0, V1_v0, V1_v1]; rfl))
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)

/-! ## After the second stretch: the first aggregate and the nodes' factors -/

theorem V3_v12 : V3 m ρ c main_v12 = aggregate128 (hidden1 (m ((c : Thread nD τ).loc main_arg0)) (m ((c : Thread nD τ).loc main_arg4)) (m ((c : Thread nD τ).loc main_arg5))) (m ((c : Thread nD τ).loc main_arg2)) (m ((c : Thread nD τ).loc main_arg3)) := by
  show StableHlo.after hostOps1 (W2 m ρ c) (Proc.devRef .tc main_v12) = _
  after_results
  rw [W2_v2, W2_arg2, W2_arg3]
  rfl
theorem V3_arg1 : V3 m ρ c main_arg1 = m ((c : Thread nD τ).loc main_arg1) := by
  show StableHlo.after hostOps1 (W2 m ρ c) (Proc.devRef .tc main_arg1) = _
  after_results
  exact W2_arg1 m ρ c
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg3 : W3 m ρ c (Proc.devRef .tc main_arg3) = m ((c : Thread nD τ).loc main_arg3) := by
  show StableHlo.after hostOps1 (W2 m ρ c) (Proc.devRef .tc main_arg3) = _
  after_results
  exact W2_arg3 m ρ c
theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c

/-! ## After region 1: the first layer's output -/

theorem W4_v13 : W4 m ρ c (Proc.devRef .tc main_v13) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m ρ c 2).trans ((Cert.KernelIdeal.ScaleFloor.final (V3 m ρ) c).trans (by rw [V3_arg1, V3_v12]; rfl))
theorem W4_arg1 : W4 m ρ c (Proc.devRef .tc main_arg1) = m ((c : Thread nD τ).loc main_arg1) :=
  (W4_arr m ρ c 1).trans (((dat1 (V3 m ρ) c).arrAt_in 1 rfl _).trans ((A_eq1 (V3 m ρ) c 1).trans (V3_arg1 m ρ c)))
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)

/-! ## After the third stretch: region 2's three operands -/

theorem V5_v13 : V5 m ρ c main_v13 = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v13) = _
  after_results
  exact W4_v13 m ρ c
theorem V5_v14 : V5 m ρ c main_v14 = transpose S128x64 [1, 0] (m ((c : Thread nD τ).loc main_arg6)) transposes_S64x128_S128x64_1_0 := by
  show StableHlo.after hostOps2 (W4 m ρ c) (Proc.devRef .tc main_v14) = _
  after_results
  rw [W4_arg6]
theorem V5_v15 : V5 m ρ c main_v15 = shapeCast S1x64 (m ((c : Thread nD τ).loc main_arg7)) shapeCasts_S64_S1x64 := by
  show StableHlo.after hostOps2 (W4 m ρ c) (Proc.devRef .tc main_v15) = _
  after_results
  rw [W4_arg7]
  rfl
theorem W5_arg1 : W5 m ρ c (Proc.devRef .tc main_arg1) = m ((c : Thread nD τ).loc main_arg1) := by
  show StableHlo.after hostOps2 (W4 m ρ c) (Proc.devRef .tc main_arg1) = _
  after_results
  exact W4_arg1 m ρ c
theorem W5_arg2 : W5 m ρ c (Proc.devRef .tc main_arg2) = m ((c : Thread nD τ).loc main_arg2) := by
  show StableHlo.after hostOps2 (W4 m ρ c) (Proc.devRef .tc main_arg2) = _
  after_results
  exact W4_arg2 m ρ c
theorem W5_arg3 : W5 m ρ c (Proc.devRef .tc main_arg3) = m ((c : Thread nD τ).loc main_arg3) := by
  show StableHlo.after hostOps2 (W4 m ρ c) (Proc.devRef .tc main_arg3) = _
  after_results
  exact W4_arg3 m ρ c

/-! ## After region 2: the second affine map -/

theorem W6_v16 : W6 m ρ c (Proc.devRef .tc main_v16) = hidden2 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) :=
  (W6_arr m ρ c 3).trans ((Cert.KernelIdeal.AffineTwo.final (V5 m ρ) c).trans (by rw [V5_v13, V5_v14, V5_v15]; rfl))
theorem W6_arg1 : W6 m ρ c (Proc.devRef .tc main_arg1) = m ((c : Thread nD τ).loc main_arg1) :=
  (W6_of_ne m ρ c main_arg1 (by decide)).trans (W5_arg1 m ρ c)
theorem W6_arg2 : W6 m ρ c (Proc.devRef .tc main_arg2) = m ((c : Thread nD τ).loc main_arg2) :=
  (W6_of_ne m ρ c main_arg2 (by decide)).trans (W5_arg2 m ρ c)
theorem W6_arg3 : W6 m ρ c (Proc.devRef .tc main_arg3) = m ((c : Thread nD τ).loc main_arg3) :=
  (W6_of_ne m ρ c main_arg3 (by decide)).trans (W5_arg3 m ρ c)

/-! ## After the fourth stretch: the second aggregate and the nodes' factors -/

theorem V7_v26 : V7 m ρ c main_v26 = aggregate64 (hidden2 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)) := by
  show StableHlo.after hostOps3 (W6 m ρ c) (Proc.devRef .tc main_v26) = _
  after_results
  rw [W6_v16, W6_arg2, W6_arg3]
  rfl
theorem V7_arg1 : V7 m ρ c main_arg1 = m ((c : Thread nD τ).loc main_arg1) := by
  show StableHlo.after hostOps3 (W6 m ρ c) (Proc.devRef .tc main_arg1) = _
  after_results
  exact W6_arg1 m ρ c

/-! ## After region 3: the result -/

/-- The result buffer at the last boundary is the two layers' function of the argument arrays as launched. -/
theorem W8_v27 : W8 m ρ c (Proc.devRef .tc main_v27) = result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) :=
  (W8_arr m ρ c 2).trans ((Cert.KernelIdeal.Scale.final (V7 m ρ) c).trans (by rw [V7_arg1, V7_v26]; rfl))

end Cert.KernelIdeal.Boundaries

end
-- ==== Proof.ReferenceJoin.lean ====
/-
  The reference's result term is the same function of the argument arrays.

  The reference computes each layer on whole arrays: a general dot product of the node table with the transposed
  weights plus the bias repeated down the rows, the same gather and scatter, the factors repeated along the rows and
  multiplied in, and for the first layer a maximum with zero.  Entry by entry these are the three node maps: the dot
  product at (r, c) is the sum over k of x (r, k) · w (k, c); the bias repeated down the rows reads b (c), which is what
  the bias laid out as a row reads at (0, c); the factors repeated along a row read the row's factor.  No law beyond
  reading each operation at an index is used: the sums are the same sums in the same order.
-/
import proofs.«108688_j55817394978940_1_alg».proof.Proof.Layers
import proofs.«108688_j55817394978940_1_alg».proof.Proof.Gen.ReferenceIdeal.Read
import proofs.«108688_j55817394978940_1_alg».proof.Proof.LibRowColumn
import Idealize.ShloMosaic.Lib.Pipeline.Value
import Idealize.ShloMosaic.Lib.ValueIdx

noncomputable section

namespace Cert.ReferenceIdeal.Join

open Idealize.ShloMosaic Idealize.ShloMosaic.ValueIdx Cert.NodeMaps
open Cert.ReferenceIdeal Cert.ReferenceIdeal.Gen Cert.ReferenceIdeal.Read
open Cert.KernelIdeal.Layers (zero sourceColumn aggregate128 aggregate64 hidden1 layer1 hidden2 result)

/-- The bias repeated down the rows reads, at (r, c), what the bias laid out as a row reads at (0, c): 128 columns. -/
theorem bias_row128 (b : FVec Ideal S128 .f32) (i : S100000x128.Idx) :
    broadcastInDim S100000x128 ![0, 1] bcast_S1x128_S100000x128_0_1 (broadcastInDim S1x128 ![1] bcast_S128_S1x128_1 b) i
      = shapeCast Cert.KernelIdeal.S1x128 b Cert.KernelIdeal.Gen.shapeCasts_S128_S1x128 (ix2 0 (i 1)) := by
  show val_main_v3 (F := Ideal) b i = _
  rw [val_main_v3_apply, val_main_v2_apply]
  refine (shapeCast_apply b _ _ _ ?_).symm
  rw [Shape.rowMajor_val_two, Shape.rowMajor_val_one]
  show (i 1).val = 0 * 128 + (i 1).val
  omega

/-- The same with 64 columns. -/
theorem bias_row64 (b : FVec Ideal S64 .f32) (i : S100000x64.Idx) :
    broadcastInDim S100000x64 ![0, 1] bcast_S1x64_S100000x64_0_1 (broadcastInDim S1x64 ![1] bcast_S64_S1x64_1 b) i
      = shapeCast Cert.KernelIdeal.S1x64 b Cert.KernelIdeal.Gen.shapeCasts_S64_S1x64 (ix2 0 (i 1)) := by
  show val_main_v21 (F := Ideal) b i = _
  rw [val_main_v21_apply, val_main_v20_apply]
  refine (shapeCast_apply b _ _ _ ?_).symm
  rw [Shape.rowMajor_val_two, Shape.rowMajor_val_one]
  show (i 1).val = 0 * 64 + (i 1).val
  omega

/-- The first layer's dot product plus bias is the affine map of the rows. -/
theorem affine_layer1 (x : FVec Ideal S100000x256 .f32) (w : FVec Ideal S256x128 .f32) (b : FVec Ideal S128 .f32) :
    addf (F := Ideal) (φ := .f32) (Host.dotGeneral (F := Ideal) (φ₁ := .f32) (φ₂ := .f32) dot_S100000x256_S256x128_S100000x128_1_0_0_1_n_n none x w)
        (broadcastInDim S100000x128 ![0, 1] bcast_S1x128_S100000x128_0_1 (broadcastInDim S1x128 ![1] bcast_S128_S1x128_1 b))
      = affineRows (N := 100000) (K := 256) (C := 128) x w (shapeCast Cert.KernelIdeal.S1x128 b Cert.KernelIdeal.Gen.shapeCasts_S128_S1x128) := by
  funext i
  rw [affineRows_apply, addf_apply, bias_row128]
  refine congrArg (fun a : EReal => a + _) ?_
  simp only [Host.dotGeneral]
  exact Cert.Lib.RowColumn.dotGeneral_entry (M := 100000) (K := 256) (N := 128) dot_S100000x256_S256x128_S100000x128_1_0_0_1_n_n rfl rfl
    lhs_main_v1_0 lhs_main_v1_1 rhs_main_v1_0 rhs_main_v1_1 none _ x w i

/-- The second layer's dot product plus bias is the affine map of the rows. -/
theorem affine_layer2 (x : FVec Ideal S100000x128 .f32) (w : FVec Ideal S128x64 .f32) (b : FVec Ideal S64 .f32) :
    addf (F := Ideal) (φ := .f32) (Host.dotGeneral (F := Ideal) (φ₁ := .f32) (φ₂ := .f32) dot_S100000x128_S128x64_S100000x64_1_0_0_1_n_n none x w)
        (broadcastInDim S100000x64 ![0, 1] bcast_S1x64_S100000x64_0_1 (broadcastInDim S1x64 ![1] bcast_S64_S1x64_1 b))
      = affineRows (N := 100000) (K := 128) (C := 64) x w (shapeCast Cert.KernelIdeal.S1x64 b Cert.KernelIdeal.Gen.shapeCasts_S64_S1x64) := by
  funext i
  rw [affineRows_apply, addf_apply, bias_row64]
  refine congrArg (fun a : EReal => a + _) ?_
  simp only [Host.dotGeneral]
  exact Cert.Lib.RowColumn.dotGeneral_entry (M := 100000) (K := 128) (N := 64) dot_S100000x128_S128x64_S100000x64_1_0_0_1_n_n rfl rfl
    lhs_main_v19_0 lhs_main_v19_1 rhs_main_v19_0 rhs_main_v19_1 none _ x w i

/-- The factors repeated along the rows, multiplied in, then the maximum with zero: scaled and floored rows. -/
theorem scale_floor (s : FVec Ideal S100000x1 .f32) (a : FVec Ideal S100000x128 .f32) :
    maximumf (F := Ideal) (φ := .f32) (mulf (F := Ideal) (φ := .f32) (broadcastInDim S100000x128 ![0, 1] bcast_S100000x1_S100000x128_0_1 s) a)
        (broadcastInDim S100000x128 ![] bcast_S_S100000x128 (constant (F := Ideal) S_ .f32 0x00000000#32))
      = scaleRowsFloor (N := 100000) (C := 128) zero s a := by
  funext i
  rw [scaleRowsFloor_apply, maximumf_apply, mulf_apply]
  refine congrArg₂ (fun p q : EReal => max (p * a i) q) ?_ ?_
  · show val_main_v15 (F := Ideal) s i = _
    rw [val_main_v15_apply]
    refine congrArg s (funext fun ax => Fin.ext ?_)
    match ax with
    | ⟨0, _⟩ => rfl
    | ⟨1, _⟩ => rfl
  · show val_main_call0_v0 (F := Ideal) i = _
    rw [val_main_call0_v0_apply]
    rfl

/-- The factors repeated along the rows, multiplied in: scaled rows. -/
theorem scale (s : FVec Ideal S100000x1 .f32) (a : FVec Ideal S100000x64 .f32) :
    mulf (F := Ideal) (φ := .f32) (broadcastInDim S100000x64 ![0, 1] bcast_S100000x1_S100000x64_0_1 s) a = scaleRows (N := 100000) (C := 64) s a := by
  funext i
  rw [scaleRows_apply, mulf_apply]
  refine congrArg (fun p : EReal => p * a i) ?_
  show val_main_v33 (F := Ideal) s i = _
  rw [val_main_v33_apply]
  refine congrArg s (funext fun ax => Fin.ext ?_)
  match ax with
  | ⟨0, _⟩ => rfl
  | ⟨1, _⟩ => rfl

/-- The reference's whole term, over any eight argument arrays, is the two layers' function of them. -/
theorem reference_eq (x : FVec Ideal S100000x256 .f32) (nrm : FVec Ideal S100000x1 .f32) (src dst : IVec S1600000 32)
    (w1 : FVec Ideal S128x256 .f32) (b1 : FVec Ideal S128 .f32) (w2 : FVec Ideal S64x128 .f32) (b2 : FVec Ideal S64 .f32) :
    mulf (F := Ideal) (φ := .f32) (broadcastInDim S100000x64 ![0, 1] bcast_S100000x1_S100000x64_0_1 nrm) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 (addf (F := Ideal) (φ := .f32) (Host.dotGeneral (F := Ideal) (φ₁ := .f32) (φ₂ := .f32) dot_S100000x128_S128x64_S100000x64_1_0_0_1_n_n none (maximumf (F := Ideal) (φ := .f32) (mulf (F := Ideal) (φ := .f32) (broadcastInDim S100000x128 ![0, 1] bcast_S100000x1_S100000x128_0_1 nrm) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 (addf (F := Ideal) (φ := .f32) (Host.dotGeneral (F := Ideal) (φ₁ := .f32) (φ₂ := .f32) dot_S100000x256_S256x128_S100000x128_1_0_0_1_n_n none x (transpose S256x128 [1, 0] w1 transposes_S128x256_S256x128_1_0)) (broadcastInDim S100000x128 ![0, 1] bcast_S1x128_S100000x128_0_1 (broadcastInDim S1x128 ![1] bcast_S128_S1x128_1 b1))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))) (broadcastInDim S100000x128 ![] bcast_S_S100000x128 (constant (F := Ideal) S_ .f32 0x00000000#32))) (transpose S128x64 [1, 0] w2 transposes_S64x128_S128x64_1_0)) (broadcastInDim S100000x64 ![0, 1] bcast_S1x64_S100000x64_0_1 (broadcastInDim S1x64 ![1] bcast_S64_S1x64_1 b2))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))
      = result x nrm src dst w1 b1 w2 b2 := by
  rw [affine_layer1, scale_floor, affine_layer2, scale]
  rfl

end Cert.ReferenceIdeal.Join

end
-- ==== Proof.lean ====
/-
  A two-layer graph convolution over 100000 nodes and 1600000 edges: the kernel against its reference.

  Each layer maps the node table through an affine map (rows times the transposed weights, plus the bias), sends every
  edge's source row to the edge and adds the edges' rows into their destination nodes, and multiplies every node's row
  by the node's factor; the first layer then floors at zero.  The kernel computes the affine maps and the scalings in
  four regions that sweep the nodes block of rows by block of rows (5000 or 10000 rows at a time, the products taken on
  operands first narrowed to a shorter float format), and leaves the gather and the scatter to the host; the reference
  does everything on whole arrays.

  On the extended reals a change of float format is the identity, a product accumulated from zero is the plain sum, and
  row r of every one of these maps reads row r of the node table only: so the blocks of each region are the blocks of
  one whole-array function, and they tile the rows.  Both programs therefore end at the same function of the eight
  argument arrays, `Layers.result` — with the same sums in the same order, so nothing is asked of the inputs: the
  precondition is never opened.  The idealization rewrote no operation, so the kernel's idealized text is its own text.
-/
import proofs.«108688_j55817394978940_1_alg».proof.Defs
import proofs.«108688_j55817394978940_1_alg».proof.Proof.Gen.Kernel
import proofs.«108688_j55817394978940_1_alg».proof.Proof.Gen.Kernel.Skeleton
import proofs.«108688_j55817394978940_1_alg».proof.Proof.Gen.Kernel.Launch
import proofs.«108688_j55817394978940_1_alg».proof.Proof.Gen.Kernel.Points
import proofs.«108688_j55817394978940_1_alg».proof.Proof.Gen.Kernel.Frame
import proofs.«108688_j55817394978940_1_alg».proof.Proof.Gen.KernelIdeal
import proofs.«108688_j55817394978940_1_alg».proof.Proof.Gen.KernelIdeal.Skeleton
import proofs.«108688_j55817394978940_1_alg».proof.Proof.Gen.KernelIdeal.Launch
import proofs.«108688_j55817394978940_1_alg».proof.Proof.Gen.KernelIdeal.Points
import proofs.«108688_j55817394978940_1_alg».proof.Proof.Gen.KernelIdeal.Frame
import proofs.«108688_j55817394978940_1_alg».proof.Proof.Gen.ReferenceIdeal
import proofs.«108688_j55817394978940_1_alg».proof.Proof.Gen.Pre_finite_inputs
import proofs.«108688_j55817394978940_1_alg».proof.Proof.Gen.ReferenceIdeal.Run
import proofs.«108688_j55817394978940_1_alg».proof.Proof.Gen.ReferenceIdeal.Read
import proofs.«108688_j55817394978940_1_alg».proof.Proof.ResultRun
import proofs.«108688_j55817394978940_1_alg».proof.Proof.Boundaries
import proofs.«108688_j55817394978940_1_alg».proof.Proof.ReferenceJoin
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does its idealized text. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel's run: the result buffer ends at the two layers' function of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v27)
          = Cert.KernelIdeal.Layers.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono
    (fun _ h c => ⟨(h c).1.trans (Cert.KernelIdeal.Boundaries.W8_v27 m ρ c), (h c).2⟩)
    (Cert.KernelIdeal.ResultRun.run (F := Ideal) m ρ)

/-- From memories agreeing on the arguments both programs end with the same result: each is `Layers.result` of the
    arguments. -/
theorem algebraic : Cert.algebraic_KernelIdeal_ReferenceIdeal := by
  intro m ρ m' ρ' _ hagree
  refine ⟨fun c => Cert.KernelIdeal.Layers.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact Cert.ReferenceIdeal.Join.reference_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
